-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .i1⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_cst_3 : Ref sig .tc := ⟨.hbm, 14, rfl⟩
abbrev main_cst_4 : Ref sig .tc := ⟨.hbm, 15, rfl⟩
abbrev main_call1_v0 : Ref sig .tc := ⟨.hbm, 16, rfl⟩
abbrev main_call1_v1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid point leaves behind, read as values.

  The kernel body runs in three ways, by the position `k` of the point on the grid's third axis. It always
  adds the product of the two binarized blocks onto the running block kept between points; at `k = 0` it
  first sets the running block to zero, and at `k = 3` it afterwards writes the running block plus the bias
  row to the output block. Each way leaves the running block (and, the third, the output block) as ONE
  store that covers the whole block, so what is left is that store's value: the pure term of the body's
  arithmetic (`k0_pay1` the zero block, `k0_pay2` running block plus product, `k0_pay3` plus bias),
  applied to the blocks the point was given. The lemmas hold for any float instance.
-/
import proofs.«111558_j19516331393233_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The offsets of every load and store of the body: zero on both axes. -/
theorem hz : (![0, 0] : Fin 2 → Nat) = fun _ => 0 := funext fun a => by fin_cases a <;> rfl

/-- A first point (`k = 0`): the running block ends at the product added onto the zero block — the zero block is
    stored, read back, and the sum stored over it. -/
theorem scratch_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .f32) (x2 : Vec F S1x1024 .f32) :
    sout0_A_0 c i arg3 harg3 arg4 harg4 arg5 harg5 arg6 harg6 arg7 harg7 hc0 hc1 x0 x1 x2 = k0_pay2 x0 x1 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A middle point (`k = 1, 2`): the running block ends at the product added onto what the point before left. -/
theorem scratch_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .f32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg7.read_unread, View.ld_unit_zero (S := S1024x1024) hz]

/-- A last point (`k = 3`): the running block likewise, -/
theorem scratch_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .f32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S1024x1024) hz]

/-- and the output block ends at that running block, read back, plus the bias row repeated down the rows. -/
theorem out_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .f32) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg7.read_unread, View.ld_unit_zero (S := S1024x1024) hz, View.ld_unit_zero (S := S1x1024) hz]

end Cert.KernelIdeal.Pieces

end
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.Spec.lean ====
/-
  What both programs compute, as one function of the three argument arrays, and the one law that joins
  the kernel's arrangement of the sum to the reference's.

  Every entry of `x` (8192 × 4096) and of `w` (4096 × 4096) is replaced by `+1` where it is positive and
  by `-1` elsewhere (`pm`); the result at `(n, o)` is `Σ_{q < 4096} pm x[n, q] · pm w[o, q] + b[o]` (`G`).
  The kernel takes the sum over `q` in four consecutive stretches of 1024 terms, adding the stretches
  one after the other onto a zero; over the extended reals that is the sum over all 4096 terms, because
  addition there is associative and commutative (no finiteness is used).
-/
import Idealize.ShloMosaic.PureOps.Ideal.Laws
import Idealize.ShloMosaic.Lib.ValueIdx
import proofs.«111558_j19516331393233_2_alg».proof.Proof.LibBlockSum

noncomputable section

open scoped BigOperators

namespace Cert.Binarize

open Idealize.ShloMosaic Idealize.ShloMosaic.ValueIdx

/-- `+1` for a positive number, `-1` for every other extended real (zero and the negatives, `-∞` too). -/
def pm (v : Ideal .f32) : Ideal .f32 :=
  Scalar.select (FloatOps.cmpf .ogt v (FloatOps.ofBits .f32 0x00000000#32))
    (FloatOps.ofBits .f32 0x3F800000#32) (FloatOps.ofBits .f32 0xBF800000#32)

/-- The result array as one function of the arguments: entry `(n, o)` is the sum over the shared axis of
    the products of the signs, plus the bias entry `o`. -/
def G (x : (⟨2, ![8192, 4096]⟩ : Shape).Idx → Ideal .f32) (w : (⟨2, ![4096, 4096]⟩ : Shape).Idx → Ideal .f32)
    (b : (⟨1, ![4096]⟩ : Shape).Idx → Ideal .f32) : (⟨2, ![8192, 4096]⟩ : Shape).Idx → Ideal .f32 :=
  fun i => (∑ q : Fin 4096, pm (x (ix2 (i 0) q)) * pm (w (ix2 (i 1) q))) + b (ix1 (i 1))

/-- One product of signs, by row `a` of `x`, row `o` of `w` and position `n` on the shared axis, as a
    function of natural numbers (zero outside the arrays, where it is never read). -/
def term (x : (⟨2, ![8192, 4096]⟩ : Shape).Idx → Ideal .f32) (w : (⟨2, ![4096, 4096]⟩ : Shape).Idx → Ideal .f32)
    (a o n : ℕ) : Ideal .f32 :=
  if h : a < 8192 ∧ o < 4096 ∧ n < 4096 then pm (x (ix2 ⟨a, h.1⟩ ⟨n, h.2.2⟩)) * pm (w (ix2 ⟨o, h.2.1⟩ ⟨n, h.2.2⟩)) else 0

theorem term_eq (x : (⟨2, ![8192, 4096]⟩ : Shape).Idx → Ideal .f32) (w : (⟨2, ![4096, 4096]⟩ : Shape).Idx → Ideal .f32)
    (a o n : ℕ) (ha : a < 8192) (ho : o < 4096) (hn : n < 4096) :
    term x w a o n = pm (x (ix2 ⟨a, ha⟩ ⟨n, hn⟩)) * pm (w (ix2 ⟨o, ho⟩ ⟨n, hn⟩)) := by
  unfold term
  rw [dif_pos ⟨ha, ho, hn⟩]

/-- Stretch `s` of the sum: its 1024 consecutive terms. -/
def stretch (x : (⟨2, ![8192, 4096]⟩ : Shape).Idx → Ideal .f32) (w : (⟨2, ![4096, 4096]⟩ : Shape).Idx → Ideal .f32)
    (a o s : ℕ) : Ideal .f32 :=
  ∑ r : Fin 1024, term x w a o (s * 1024 + r.val)

/-- Two blocks that hold row `a` of `x` and row `o` of `w` at the 1024 positions of stretch `k` (block rows `p` and `p'`):
    the sum over the block's second axis of the products of their signs is stretch `k` of the sum. -/
theorem stretch_of_blocks (x : (⟨2, ![8192, 4096]⟩ : Shape).Idx → Ideal .f32) (w : (⟨2, ![4096, 4096]⟩ : Shape).Idx → Ideal .f32)
    (x0 x1 : (⟨2, ![1024, 1024]⟩ : Shape).Idx → Ideal .f32) (a o k : ℕ) (ha : a < 8192) (ho : o < 4096) (hk : k < 4)
    (p p' : Fin 1024)
    (h0 : ∀ (q : Fin 1024) (hq : k * 1024 + q.val < 4096), x0 (ix2 p q) = x (ix2 ⟨a, ha⟩ ⟨k * 1024 + q.val, hq⟩))
    (h1 : ∀ (q : Fin 1024) (hq : k * 1024 + q.val < 4096), x1 (ix2 p' q) = w (ix2 ⟨o, ho⟩ ⟨k * 1024 + q.val, hq⟩)) :
    ∑ q : Fin 1024, pm (x0 (ix2 p q)) * pm (x1 (ix2 p' q)) = stretch x w a o k := by
  unfold stretch
  refine Finset.sum_congr rfl fun q _ => ?_
  have hq : k * 1024 + q.val < 4096 := by have := q.isLt; omega
  rw [term_eq x w a o _ ha ho hq, h0 q hq, h1 q hq]

/-- The four stretches, added onto a zero, and then the bias: entry `(a, o)` of `G`. -/
theorem stretches_eq_G (x : (⟨2, ![8192, 4096]⟩ : Shape).Idx → Ideal .f32) (w : (⟨2, ![4096, 4096]⟩ : Shape).Idx → Ideal .f32)
    (b : (⟨1, ![4096]⟩ : Shape).Idx → Ideal .f32) (a : Fin 8192) (o : Fin 4096) :
    ((0 : Ideal .f32) + ∑ s ∈ Finset.range (3 + 1), stretch x w a.val o.val s) + b (ix1 o) = G x w b (ix2 a o) := by
  have e : ∑ s ∈ Finset.range (3 + 1), stretch x w a.val o.val s = ∑ n : Fin 4096, term x w a.val o.val n.val :=
    Cert.BlockSum.sum_blocks 4 1024 (term x w a.val o.val)
  have zadd : ∀ y : EReal, (0 : EReal) + y = y := zero_add
  rw [e]
  unfold G
  refine congrArg (· + b (ix1 o)) ((zadd _).trans (Finset.sum_congr rfl fun n _ => ?_))
  exact term_eq x w a.val o.val n.val a.isLt o.isLt n.isLt

end Cert.Binarize

end
-- ==== Proof.LibDotNT.lean ====
/-
  A matrix product against a transposed right operand, read at an index, on the extended reals.

  For dimension numbers that contract the left operand's second axis against the right operand's
  SECOND axis, with no batch axes (an `M×K` matrix times the transpose of an `N×K` matrix), entry
  `(p, c)` of the product is `Σ_{q < K} l[p, q] · r[c, q]`. The library states a product as a sum over
  the contraction shape's multi-indices; here that sum is re-indexed by the one contracted coordinate,
  once, for every record of this form and every extent.
-/
import Idealize.ShloMosaic.PureOps.Ideal.Laws
import Idealize.ShloMosaic.Lib.ValueIdx

noncomputable section

open scoped BigOperators

namespace Cert.DotNT

open Idealize.ShloMosaic Idealize.ShloMosaic.ValueIdx

variable {M K N : Nat} (d : DotDims ⟨2, ![M, K]⟩ ⟨2, ![N, K]⟩ ⟨2, ![M, N]⟩)

/-- The dimension numbers of a product with a transposed right operand: contract left axis 1 with right
    axis 1, keep left axis 0 and right axis 0 in that order, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

/-- The contraction shape has one axis. -/
theorem contr_rank (h : IsNT d) : d.contr.rank = 1 := by rw [d.rank_contr, h.lc]; rfl

/-- That axis has the shared extent `K`. -/
theorem contr_size (h : IsNT d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsNT d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsNT d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` into a zero accumulator, at entry `(p, c)`. -/
theorem matmul_zero_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) :=
  (Ideal.matmul_constant_zero_apply d prec l r (ix2 p c)).trans (sum_contr h l r (ix2 p c))

/-- The host's `dot_general` of the same form, at entry `(p, c)`. -/
theorem dotGeneral_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) :=
  (Ideal.dotGeneral_apply d prec .single l r (ix2 p c)).trans (sum_contr h l r (ix2 p c))

end Cert.DotNT

end
-- ==== Proof.Payload.lean ====
/-
  The body's arithmetic at one entry, over the extended reals.

  * the zero block holds `0` everywhere;
  * the running block after a point, at `(p, o)`, is what it held there plus the sum over the 1024 positions
    `q` of the point's stretch of `pm x₀[p, q] · pm x₁[o, q]` — the two blocks are binarized entry by entry
    (a change of float format is the identity on the extended reals), and their product contracts the second
    axis of both into a zero accumulator;
  * the output block, at `(p, o)`, is the running block there plus entry `o` of the bias row.
-/
import proofs.«111558_j19516331393233_2_alg».proof.Proof.Gen.KernelIdeal.Skeleton
import proofs.«111558_j19516331393233_2_alg».proof.Proof.Spec
import proofs.«111558_j19516331393233_2_alg».proof.Proof.LibDotNT
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen Cert.Binarize

/-- The zero block holds zero everywhere. -/
theorem pay1_apply (j : S1024x1024.Idx) : k0_pay1 (F := Ideal) j = 0 := by
  unfold k0_pay1
  rw [shapeCast_self]
  exact Ideal.ofBits_zero_f32

/-- The dimension numbers of the body's product: the second axis of both blocks is summed over. -/
theorem dot_isNT : Cert.DotNT.IsNT dot_S1024x1024_S1024x1024_S1024x1024_1_1_0_0_n_n := ⟨rfl, rfl, rfl, rfl, rfl, rfl⟩

/-- The running block after a point: what it held plus the point's stretch of the sum of products of signs. -/
theorem pay2_apply (x0 x1 acc : Vec Ideal S1024x1024 .f32) (p o : Fin 1024) :
    k0_pay2 (F := Ideal) x0 x1 acc (ix2 p o) = acc (ix2 p o) + ∑ q : Fin 1024, pm (x0 (ix2 p q)) * pm (x1 (ix2 o q)) := by
  unfold k0_pay2
  rw [shapeCast_self]
  refine congrArg (acc (ix2 p o) + ·) ?_
  refine (Cert.DotNT.matmul_zero_apply dot_isNT none _ _ p o).trans ?_
  rfl

/-- The output block: the running block plus the bias row, whose one row is repeated down the 1024 rows. -/
theorem pay3_apply (a : Vec Ideal S1024x1024 .f32) (v : Vec Ideal S1x1024 .f32) (p o : Fin 1024) :
    k0_pay3 (F := Ideal) a v (ix2 p o) = a (ix2 p o) + v (ix2 (0 : Fin 1) o) := by
  unfold k0_pay3
  rw [shapeCast_self]
  refine congrArg (a (ix2 p o) + ·) ?_
  exact broadcastTo_apply v broadcasts_S1x1024_S1024x1024 (ix2 p o) (ix2 (0 : Fin 1) o) (fun d => by
    match d with
    | ⟨0, _⟩ => show (0 : ℕ) = if (1 : ℕ) = 1 then 0 else _; rw [if_pos rfl]
    | ⟨1, _⟩ => show o.val = if (1024 : ℕ) = 1 then 0 else o.val; rw [if_neg (by decide)])

end Cert.KernelIdeal.Payload

end
-- ==== Proof.Blocks.lean ====
/-
  The blocks the kernel is handed at a grid point, read at one entry.

  The grid is 8 × 4 × 4 and its points are numbered `t = 16·i + 4·j + k`.  At point `t` the body is given block `(i, k)` of
  `x`, block `(j, k)` of `w` (both 1024 × 1024) and block `(0, j)` of the bias row (1 × 1024), and it writes block `(i, j)` of
  the result.  A block's entry sits in its array at block index × block size + the entry's own coordinate, on each axis;
  the bias row is the bias vector viewed as a 1 × 4096 matrix.
-/
import proofs.«111558_j19516331393233_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- Which block each window holds at point `t = 16·i + 4·j + k` of the 8 × 4 × 4 grid: block `(i, k)` of `x`, block `(j, k)` of
    `w`, block `(0, j)` of the bias row, block `(i, j)` of the result. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- Entry `(p, q)` of the block of `x` at point `t` is `x[1024·i + p, 1024·k + q]`. -/
theorem iblk0_apply (c : Dev nD) (t : Fin cfg0.N) (p q : Fin 1024)
    (hp : 1024 * (t.val / 16) + p.val < 8192) (hq : t.val % 4 * 1024 + q.val < 4096) :
    (iblk m c 0 t : Vec F S1024x1024 .f32) (ix2 p q)
      = m ((c : Thread nD τ).loc main_arg0) (ix2 ⟨1024 * (t.val / 16) + p.val, hp⟩ ⟨t.val % 4 * 1024 + q.val, hq⟩) := by
  obtain ⟨e0, e1, -⟩ := idx_facts t
  unfold iblk
  rw [View.read_apply]
  show V m c main_arg0 _ = _
  rw [V_main_arg0 m c]
  refine congrArg _ (funext fun a => Fin.ext ?_)
  match a with
  | ⟨0, _⟩ => show win0_0.index t (0 : Fin 2) * 1024 + 1 * p.val = 1024 * (t.val / 16) + p.val; omega
  | ⟨1, _⟩ => show win0_0.index t (1 : Fin 2) * 1024 + 1 * q.val = t.val % 4 * 1024 + q.val; omega

/-- Entry `(o, q)` of the block of `w` at point `t` is `w[1024·j + o, 1024·k + q]`. -/
theorem iblk1_apply (c : Dev nD) (t : Fin cfg0.N) (o q : Fin 1024)
    (ho : 1024 * (t.val / 4 % 4) + o.val < 4096) (hq : t.val % 4 * 1024 + q.val < 4096) :
    (iblk m c 1 t : Vec F S1024x1024 .f32) (ix2 o q)
      = m ((c : Thread nD τ).loc main_arg1) (ix2 ⟨1024 * (t.val / 4 % 4) + o.val, ho⟩ ⟨t.val % 4 * 1024 + q.val, hq⟩) := by
  obtain ⟨-, -, e0, e1, -⟩ := idx_facts t
  unfold iblk
  rw [View.read_apply]
  show V m c main_arg1 _ = _
  rw [V_main_arg1 m c]
  refine congrArg _ (funext fun a => Fin.ext ?_)
  match a with
  | ⟨0, _⟩ => show win0_1.index t (0 : Fin 2) * 1024 + 1 * o.val = 1024 * (t.val / 4 % 4) + o.val; omega
  | ⟨1, _⟩ => show win0_1.index t (1 : Fin 2) * 1024 + 1 * q.val = t.val % 4 * 1024 + q.val; omega

/-- The bias row the region reads is the bias vector laid out as one row. -/
theorem V_bias (c : Dev nD) :
    (V m c main_v0 : S1x4096.Idx → Elt F .f32) = shapeCast S1x4096 (m ((c : Thread nD τ).loc main_arg2)) shapeCasts_S4096_S1x4096 := by
  dsimp only [Gen.V, Gen.hostOps0]
  after_results
  rfl

/-- Entry `(0, o)` of the block of the bias row at point `t` is `b[1024·j + o]`. -/
theorem iblk2_apply (c : Dev nD) (t : Fin cfg0.N) (o : Fin 1024) (ho : 1024 * (t.val / 4 % 4) + o.val < 4096) :
    (iblk m c 2 t : Vec F S1x1024 .f32) (ix2 (0 : Fin 1) o)
      = m ((c : Thread nD τ).loc main_arg2) (ix1 ⟨1024 * (t.val / 4 % 4) + o.val, ho⟩) := by
  obtain ⟨-, -, -, -, e0, e1, -⟩ := idx_facts t
  unfold iblk
  rw [View.read_apply]
  show V m c main_v0 _ = _
  rw [V_bias m c]
  have e : ((cfg0.win 2).blk t).view.emb (ix2 (0 : Fin 1) o) = ix2 (0 : Fin 1) (⟨1024 * (t.val / 4 % 4) + o.val, ho⟩ : Fin 4096) :=
    funext fun a => Fin.ext (by
      match a with
      | ⟨0, _⟩ => show win0_2.index t (0 : Fin 2) * 1 + 1 * 0 = 0; omega
      | ⟨1, _⟩ => show win0_2.index t (1 : Fin 2) * 1024 + 1 * o.val = 1024 * (t.val / 4 % 4) + o.val; omega)
  rw [e]
  exact shapeCast_a_1a_apply _ shapeCasts_S4096_S1x4096 0 _

end Cert.KernelIdeal.Blocks

end
-- ==== Proof.Accum.lean ====
/-
  The running block, point by point, and what a last point writes back.

  Along the grid's third axis (`k = 0, 1, 2, 3`, the remainder of the point number by 4) the running block is set to
  zero plus stretch 0 of the sum at `k = 0`, and gains stretch `k` at each later point; so after point `t` its entry
  `(p, o)` is zero plus the stretches `0 … k` of the sum for row `1024·i + p` of `x` and row `1024·j + o` of `w` (by induction
  on the point).  A point with `k = 3` writes back that block plus the bias: block `(i, j)` of `G`.
-/
import proofs.«111558_j19516331393233_2_alg».proof.Proof.Gen.KernelIdeal.Value
import proofs.«111558_j19516331393233_2_alg».proof.Proof.Pieces
import proofs.«111558_j19516331393233_2_alg».proof.Proof.Payload
import proofs.«111558_j19516331393233_2_alg».proof.Proof.Blocks
import proofs.«111558_j19516331393233_2_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.Binarize
open Cert.KernelIdeal.Pieces Cert.KernelIdeal.Payload Cert.KernelIdeal.Blocks

variable (m : (ℓ : Loc nD τ sig) → Buf (Elt Ideal) ℓ)

/-- The three argument arrays on core `c`. -/
abbrev X (c : Dev nD) : S8192x4096.Idx → Ideal .f32 := m ((c : Thread nD τ).loc main_arg0)
abbrev W (c : Dev nD) : S4096x4096.Idx → Ideal .f32 := m ((c : Thread nD τ).loc main_arg1)
abbrev B (c : Dev nD) : S4096.Idx → Ideal .f32 := m ((c : Thread nD τ).loc main_arg2)

/-- The product of the two binarized blocks of point `t`, at `(p, o)`, is stretch `k` of the sum for the rows the blocks hold. -/
theorem point_stretch (c : Dev nD) (t : Fin cfg0.N) (p o : Fin 1024) :
    ∑ q : Fin 1024, pm ((iblk m c 0 t : Vec Ideal S1024x1024 .f32) (ix2 p q)) * pm ((iblk m c 1 t : Vec Ideal S1024x1024 .f32) (ix2 o q))
      = stretch (X m c) (W m c) (1024 * (t.val / 16) + p.val) (1024 * (t.val / 4 % 4) + o.val) (t.val % 4) := by
  have hN : t.val < 128 := lt_of_lt_of_eq t.isLt (show cfg0.N = 128 from N_0)
  have hp := p.isLt
  have ho := o.isLt
  exact stretch_of_blocks (X m c) (W m c) _ _ _ _ _ (by omega) (by omega) (by omega) p o
    (fun q hq => iblk0_apply m c t p q _ hq) (fun q hq => iblk1_apply m c t o q _ hq)

/-- At a first point the running block is the zero block plus the point's product; -/
theorem scratch_first (c : Dev nD) (t : Fin cfg0.N) (h0 : t.val % 4 = 0) (p o : Fin 1024) :
    (outsAt0 m c t.val t.isLt).2 (ix2 p o)
      = (0 : Ideal .f32) + stretch (X m c) (W m c) (1024 * (t.val / 16) + p.val) (1024 * (t.val / 4 % 4) + o.val) 0 := by
  have h1 : ¬t.val % 4 = 3 := by omega
  rw [outsAt0_A m c t h0 h1]
  dsimp only
  rw [scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)]
  refine (pay2_apply (iblk m c 0 t) (iblk m c 1 t) (k0_pay1 (F := Ideal)) p o).trans ?_
  rw [pay1_apply, point_stretch m c t p o, h0]

/-- at a later point it is what the point before left plus the point's product. -/
theorem scratch_next (c : Dev nD) (t : Fin cfg0.N) (h0 : ¬t.val % 4 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 4 = 3
  · rw [outsAt0_C m c t h0 h1]
    dsimp only
    exact scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- THE RUNNING BLOCK after point `n`: zero plus the stretches `0 … n mod 4`. -/
theorem scratch_eq (c : Dev nD) : ∀ (n : ℕ) (h : n < cfg0.N) (p o : Fin 1024),
    (outsAt0 m c n h).2 (ix2 p o)
      = (0 : Ideal .f32) + ∑ s ∈ Finset.range (n % 4 + 1), stretch (X m c) (W m c) (1024 * (n / 16) + p.val) (1024 * (n / 4 % 4) + o.val) s
  | 0, h, p, o => by
    show _ = (0 : Ideal .f32) + ∑ s ∈ Finset.range 1, _
    rw [Finset.sum_range_one]
    exact scratch_first m c ⟨0, h⟩ rfl p o
  | n + 1, h, p, o => by
    by_cases h0 : (n + 1) % 4 = 0
    · rw [h0, Nat.zero_add, Finset.sum_range_one]
      exact scratch_first m c ⟨n + 1, h⟩ h0 p o
    · rw [scratch_next m c ⟨n + 1, h⟩ h0]
      refine (pay2_apply (iblk m c 0 ⟨n + 1, h⟩) (iblk m c 1 ⟨n + 1, h⟩) _ p o).trans ?_
      rw [point_stretch m c ⟨n + 1, h⟩ p o]
      show (outsAt0 m c n _).2 (ix2 p o) + stretch (X m c) (W m c) (1024 * ((n + 1) / 16) + p.val) (1024 * ((n + 1) / 4 % 4) + o.val) ((n + 1) % 4) = _
      rw [scratch_eq c n (Nat.lt_of_succ_lt h) p o]
      have d16 : (n + 1) / 16 = n / 16 := by omega
      have d4 : (n + 1) / 4 % 4 = n / 4 % 4 := by omega
      have dk : (n + 1) % 4 = n % 4 + 1 := by omega
      rw [d16, d4, dk, Finset.sum_range_succ (n := n % 4 + 1), add_assoc]

/-- At a last point the output block is the running block plus the bias row. -/
theorem out_last (c : Dev nD) (t : Fin cfg0.N) (h0 : ¬t.val % 4 = 0) (h3 : t.val % 4 = 3) :
    (outsAt0 m c t.val t.isLt).1 = k0_pay3 (outsAt0 m c t.val t.isLt).2 (iblk m c 2 t) := by
  rw [outsAt0_C m c t h0 h3]
  dsimp only
  rw [out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2,
    scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2]

/-- WHAT A LAST POINT WRITES BACK is its block of `G` of the argument arrays. -/
theorem flushed_eq (c : Dev nD) (t : Fin cfg0.N) (hf : (cfg0.win 3).flush t = true) :
    (dats m 0 c).flushed 3 t = ((cfg0.win 3).blk t).view.read (Elt Ideal) (G (X m c) (W m c) (B m c)) := by
  have h3 : t.val % 4 = 3 := (flush0_3 t).mp hf
  have h0 : ¬t.val % 4 = 0 := by omega
  have hN : t.val < 128 := lt_of_lt_of_eq t.isLt (show cfg0.N = 128 from N_0)
  obtain ⟨-, -, -, -, -, -, e0, e1⟩ := idx_facts t
  rw [Cert.KernelIdeal.Value.flushed3, out_last m c t h0 h3]
  refine funext fun (y : S1024x1024.Idx) => ?_
  obtain ⟨p, o, rfl⟩ : ∃ (p o : Fin 1024), y = ix2 p o := ⟨y 0, y 1, eq_ix2 y⟩
  have hp := p.isLt
  have ho := o.isLt
  have hr : 1024 * (t.val / 16) + p.val < 8192 := by omega
  have hc : 1024 * (t.val / 4 % 4) + o.val < 4096 := by omega
  have e : ((cfg0.win 3).blk t).view.emb (ix2 p o)
      = ix2 (⟨1024 * (t.val / 16) + p.val, hr⟩ : Fin 8192) (⟨1024 * (t.val / 4 % 4) + o.val, hc⟩ : Fin 4096) :=
    funext fun a => Fin.ext (by
      match a with
      | ⟨0, _⟩ => show win0_3.index t (0 : Fin 2) * 1024 + 1 * p.val = 1024 * (t.val / 16) + p.val; omega
      | ⟨1, _⟩ => show win0_3.index t (1 : Fin 2) * 1024 + 1 * o.val = 1024 * (t.val / 4 % 4) + o.val; omega)
  show k0_pay3 (outsAt0 m c t.val t.isLt).2 (iblk m c 2 t) (ix2 p o) = G (X m c) (W m c) (B m c) (((cfg0.win 3).blk t).view.emb (ix2 p o))
  rw [e, pay3_apply, scratch_eq m c t.val t.isLt p o, iblk2_apply m c t o hc, h3]
  exact stretches_eq_G (X m c) (W m c) (B m c) ⟨_, hr⟩ ⟨_, hc⟩

end Cert.KernelIdeal.Accum

end
-- ==== Proof.Final.lean ====
/-
  The result array after the kernel's run is `G` of the argument arrays.

  Only the points with `k = 3` write a block back, and block `(i, j)` is written by point `16·i + 4·j + 3` alone; those 32
  blocks of 1024 × 1024 tile the 8192 × 4096 result, entry `(r, s)` lying in block `(r / 1024, s / 1024)`.  Each is its block
  of `G`, so the array is `G`.
-/
import proofs.«111558_j19516331393233_2_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Binarize
open Cert.KernelIdeal.Blocks Cert.KernelIdeal.Accum

variable (m : (ℓ : Loc nD τ sig) → Buf (Elt Ideal) ℓ) (ρ : Dev nD → PrngReg)

/-- An entry of the result is in point `t`'s block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every entry `(r, s)` of the result is in the block the last point of `(r / 1024, s / 1024)` writes back. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨n, hn, hn3, hI, hJ⟩ : ∃ n : ℕ, n < 128 ∧ n % 4 = 3 ∧ n / 16 = (i 0).val / 1024 ∧ n / 4 % 4 = (i 1).val / 1024 :=
    ⟨16 * ((i 0).val / 1024) + 4 * ((i 1).val / 1024) + 3, by omega, by omega, by omega, by omega⟩
  have hN : n < cfg0.N := lt_of_lt_of_eq hn (show cfg0.N = 128 from N_0).symm
  obtain ⟨-, -, -, -, -, -, e0, e1⟩ := idx_facts ⟨n, hN⟩
  have e0' : win0_3.index ⟨n, hN⟩ (0 : Fin 2) = n / 16 := e0
  have e1' : win0_3.index ⟨n, hN⟩ (1 : Fin 2) = n / 4 % 4 := e1
  refine ⟨⟨n, hN⟩, (flush0_3 ⟨n, hN⟩).mpr hn3, ?_⟩
  rw [mem_blk]
  intro a
  match a with
  | ⟨0, _⟩ =>
    show win0_3.index ⟨n, hN⟩ (0 : Fin 2) * 1024 ≤ (i 0).val ∧ (i 0).val < win0_3.index ⟨n, hN⟩ (0 : Fin 2) * 1024 + 1024
    rw [e0']; omega
  | ⟨1, _⟩ =>
    show win0_3.index ⟨n, hN⟩ (1 : Fin 2) * 1024 ≤ (i 1).val ∧ (i 1).val < win0_3.index ⟨n, hN⟩ (1 : Fin 2) * 1024 + 1024
    rw [e1']; omega

/-- THE RESULT ARRAY after the run. -/
theorem final (c : Dev nD) : (dats m 0 c).arrAt 3 cfg0.N = G (X m c) (W m c) (B m c) :=
  (dats m 0 c).arrAt_eq_of_cover 3 (G (X m c) (W m c) (B m c)) (fun t hf => flushed_eq m c t hf) cover

/-- The kernel's run: the result array at `G` of the arguments, the arguments unchanged. -/
theorem run : θ_run defs (onTc (τ := τ) (main (F := Ideal))) ⟨m, fun _ => 0, ρ⟩ fun r => ∀ c : Dev nD,
      r.2.mem ((c : Thread nD τ).loc main_v1) = G (X m c) (W m c) (B m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Final

end
-- ==== Proof.RefValue.lean ====
/-
  The reference's result, entry by entry, is the function `G` of its three arguments.

  The reference binarizes `x` and `w` whole (a comparison with a zero spread over the array, then a choice between a
  spread `+1` and a spread `-1`), multiplies the first by the transpose of the second in one product that contracts
  the second axis of both, and adds the bias vector laid out as a row and repeated down the rows.  Read at `(n, o)`
  that is the sum over `q` of `pm x[n, q] · pm w[o, q]`, plus `b[o]`.
-/
import proofs.«111558_j19516331393233_2_alg».proof.Proof.Gen.ReferenceIdeal.Read
import proofs.«111558_j19516331393233_2_alg».proof.Proof.Spec

noncomputable section

open scoped BigOperators
open Idealize.ShloMosaic Idealize.ShloMosaic.ValueIdx

namespace Cert.ReferenceIdeal.RefValue

open Cert.ReferenceIdeal Cert.ReferenceIdeal.Read Cert.Binarize

/-- A binarized entry of `x`. -/
theorem sign_x (x0 : S8192x4096.Idx → Ideal .f32) (i : S8192x4096.Idx) : val_main_v2 (F := Ideal) x0 i = pm (x0 i) := by
  rw [val_main_v2_apply, val_main_v1_apply, val_main_v0_apply, val_main_cst_apply, val_main_call0_v0_apply, val_main_cst_0_apply,
    val_main_call0_v1_apply, val_main_cst_1_apply]
  rfl

/-- A binarized entry of `w`. -/
theorem sign_w (x1 : S4096x4096.Idx → Ideal .f32) (i : S4096x4096.Idx) : val_main_v5 (F := Ideal) x1 i = pm (x1 i) := by
  rw [val_main_v5_apply, val_main_v4_apply, val_main_v3_apply, val_main_cst_2_apply, val_main_call1_v0_apply, val_main_cst_3_apply,
    val_main_call1_v1_apply, val_main_cst_4_apply]
  rfl

/-- The reference's result is `G` of its arguments. -/
theorem result_eq (x0 : S8192x4096.Idx → Ideal .f32) (x1 : S4096x4096.Idx → Ideal .f32) (x2 : S4096.Idx → Ideal .f32) :
    val_main_v9 (F := Ideal) x0 x1 x2 = G x0 x1 x2 := by
  refine funext fun (i : S8192x4096.Idx) => ?_
  obtain ⟨n, o, rfl⟩ : ∃ (n : Fin 8192) (o : Fin 4096), i = ix2 n o := ⟨i 0, i 1, eq_ix2 i⟩
  rw [val_main_v9_apply, val_main_v6_apply, val_main_v8_apply, val_main_v7_apply]
  show (∑ k : Fin 4096, val_main_v2 (F := Ideal) x0 (lidx_main_v6 (ix2 n o) k) * val_main_v5 (F := Ideal) x1 (ridx_main_v6 (ix2 n o) k))
      + x2 (idx_main_v7 (idx_main_v8 (ix2 n o)))
    = (∑ q : Fin 4096, pm (x0 (ix2 n q)) * pm (x1 (ix2 o q))) + x2 (ix1 o)
  refine congrArg₂ (· + ·) (Finset.sum_congr rfl fun k _ => ?_) (congrArg x2 ?_)
  · have el : lidx_main_v6 (ix2 n o) k = ix2 n k := funext fun a => Fin.ext (by
      match a with
      | ⟨0, _⟩ => rfl
      | ⟨1, _⟩ => rfl)
    have er : ridx_main_v6 (ix2 n o) k = ix2 o k := funext fun a => Fin.ext (by
      match a with
      | ⟨0, _⟩ => rfl
      | ⟨1, _⟩ => rfl)
    rw [el, er, sign_x, sign_w]
  · exact funext fun a => Fin.ext (by
      match a with
      | ⟨0, _⟩ => rfl)

end Cert.ReferenceIdeal.RefValue

end
-- ==== Proof.lean ====
/-
  The kernel binarizes `x` (8192 × 4096) and `w` (4096 × 4096) to `±1` block by block, accumulates the products of
  1024 × 1024 blocks over the shared axis in four steps into a running block, and at the fourth step writes the running
  block plus the bias row to the result; the reference binarizes the whole arrays, takes one product against the
  transpose and adds the bias.  Over the extended reals both leave, at `(n, o)`, the sum over `q < 4096` of
  `pm x[n, q] · pm w[o, q]` plus `b[o]` (`Cert.Binarize.G`): the kernel's four partial sums added one after the other onto
  zero are the one sum, by associativity and commutativity of addition alone, so the precondition is not used.

  The three frames are the generated ones (the reference's is its run with the result dropped); the idealization
  rewrote no operation, so there is nothing to preserve; the value claim sets the kernel's run (`Final.run`) beside the
  reference's (`RefValue.result_eq`).
-/
import proofs.«111558_j19516331393233_2_alg».proof.Defs
import proofs.«111558_j19516331393233_2_alg».proof.Proof.Gen.Kernel
import proofs.«111558_j19516331393233_2_alg».proof.Proof.Gen.Kernel.Frame
import proofs.«111558_j19516331393233_2_alg».proof.Proof.Gen.KernelIdeal
import proofs.«111558_j19516331393233_2_alg».proof.Proof.Gen.KernelIdeal.Frame
import proofs.«111558_j19516331393233_2_alg».proof.Proof.Gen.KernelIdeal.Value
import proofs.«111558_j19516331393233_2_alg».proof.Proof.Gen.ReferenceIdeal
import proofs.«111558_j19516331393233_2_alg».proof.Proof.Gen.ReferenceIdeal.Run
import proofs.«111558_j19516331393233_2_alg».proof.Proof.Gen.ReferenceIdeal.Read
import proofs.«111558_j19516331393233_2_alg».proof.Proof.Gen.Pre_finite_inputs
import proofs.«111558_j19516331393233_2_alg».proof.Proof.Final
import proofs.«111558_j19516331393233_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of arguments that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
